-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 20
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BlockReads.lean ====
/-
  The blocks the grid points read.

  The grid has ten points. Point `t` reads rows `5000 t … 5000 t + 4999` of the aggregated features; the weight array
  and the bias row are each one block, read whole at every point. Each fact is first stated for an arbitrary array
  read through the window's block, and then applied to the array the region finds.
-/
import proofs.«163567_j72765335929214_2_alg».proof.Proof.Gen.KernelIdeal.Value
import Idealize.ShloMosaic.Lib.ValueIdx

noncomputable section

namespace Cert.KernelIdeal.Bridge

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The offsets `(0, 0)` are the zero offsets on both axes. -/
theorem zero_offsets : (![0, 0] : Fin 2 → Nat) = fun _ => 0 := funext fun a => by fin_cases a <;> rfl

/-- The block indices at point `t`: the feature window and the result window are at block row `t`, column `0`; the
    weight and bias windows stay at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Read through the feature window's block at point `t`, an array gives at row `p` its row `5000 t + p`. -/
theorem feature_block_read (A : S50000x128.Idx → Elt Ideal .f32) (t : Fin cfg0.N) (x : S5000x128.Idx) (k : S50000x128.Idx)
    (hk0 : (k 0).val = 5000 * t.val + (x 0).val) (hk1 : (k 1).val = (x 1).val) :
    (((cfg0.win 0).blk t).view.read (Elt Ideal) A : Vec Ideal S5000x128 .f32) x = A k := by
  obtain ⟨e0, e1, -⟩ := block_indices t
  rw [View.read_apply]
  show A _ = A k
  refine congrArg A ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Read through the weight window's one block, an array gives itself. -/
theorem weight_block_read (A : S128x128.Idx → Elt Ideal .f32) (t : Fin cfg0.N) (x : S128x128.Idx) :
    (((cfg0.win 1).blk t).view.read (Elt Ideal) A : Vec Ideal S128x128 .f32) x = A x := by
  obtain ⟨-, -, e0, e1, -⟩ := block_indices t
  rw [View.read_apply]
  show A _ = A x
  refine congrArg A ?_
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- Read through the bias window's one block, a row gives itself. -/
theorem bias_block_read (A : S1x128.Idx → Elt Ideal .f32) (t : Fin cfg0.N) (x : S1x128.Idx) :
    (((cfg0.win 2).blk t).view.read (Elt Ideal) A : Vec Ideal S1x128 .f32) x = A x := by
  obtain ⟨-, -, -, -, e0, e1, -⟩ := block_indices t
  rw [View.read_apply]
  show A _ = A x
  refine congrArg A ?_
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- Row `p` of the feature block at point `t` is row `5000 t + p` of the array the region finds. -/
theorem feature_block_apply (c : Dev nD) (t : Fin cfg0.N) (x : S5000x128.Idx) (k : S50000x128.Idx)
    (hk0 : (k 0).val = 5000 * t.val + (x 0).val) (hk1 : (k 1).val = (x 1).val) :
    (iblk m c 0 t : Vec Ideal S5000x128 .f32) x = (V m c main_v9 : S50000x128.Idx → Elt Ideal .f32) k := by
  unfold iblk
  exact feature_block_read _ t x k hk0 hk1

/-- The weight block at every point is the whole weight array. -/
theorem weight_block_apply (c : Dev nD) (t : Fin cfg0.N) (x : S128x128.Idx) :
    (iblk m c 1 t : Vec Ideal S128x128 .f32) x = (V m c main_arg3 : S128x128.Idx → Elt Ideal .f32) x := by
  unfold iblk
  exact weight_block_read _ t x

/-- The bias block at every point is the whole bias row. -/
theorem bias_block_apply (c : Dev nD) (t : Fin cfg0.N) (x : S1x128.Idx) :
    (iblk m c 2 t : Vec Ideal S1x128 .f32) x = (V m c main_v10 : S1x128.Idx → Elt Ideal .f32) x := by
  unfold iblk
  exact bias_block_read _ t x

end Cert.KernelIdeal.Bridge

end
-- ==== Proof.DenseSpec.lean ====
/-
  The function both programs compute from the aggregated node features.

  Every node's feature row is first replaced by the sum of the rows of its in-neighbours (a gather along the source
  index followed by a scatter-add along the destination index). What follows is one dense layer with a ramp: the
  aggregated array `h`, of 50000 rows and 128 columns, is multiplied by a 128 × 128 weight array `W`, a bias
  row `b` is added to every row, and negative entries are replaced by zero. Entry `(r, j)` of the result is

      max (∑ k, h (r, k) · W (k, j) + b j) 0

  over the extended reals. This module states that function; it mentions no program.
-/
import Idealize.ShloMosaic.PureOps.Ideal
import Idealize.ShloMosaic.Lib.ValueIdx

noncomputable section

namespace Cert.DenseRelu

open Idealize.ShloMosaic Idealize.ShloMosaic.ValueIdx

/-- The dense layer with a ramp, entry by entry: row `i 0` of `h` against column `i 1` of `W`, plus the bias at
    `i 1`, cut off below at zero. -/
def dense (h : (⟨2, ![50000, 128]⟩ : Shape).Idx → EReal) (W : (⟨2, ![128, 128]⟩ : Shape).Idx → EReal)
    (b : (⟨1, ![128]⟩ : Shape).Idx → EReal) : (⟨2, ![50000, 128]⟩ : Shape).Idx → EReal :=
  fun i => max ((∑ k : Fin 128, h (ix2 (i 0) k) * W (ix2 k (i 1))) + b (ix1 (i 1))) 0

/-- The dense layer read at an entry. -/
theorem dense_apply (h : (⟨2, ![50000, 128]⟩ : Shape).Idx → EReal) (W : (⟨2, ![128, 128]⟩ : Shape).Idx → EReal)
    (b : (⟨1, ![128]⟩ : Shape).Idx → EReal) (i : (⟨2, ![50000, 128]⟩ : Shape).Idx) :
    dense h W b i = max ((∑ k : Fin 128, h (ix2 (i 0) k) * W (ix2 k (i 1))) + b (ix1 (i 1))) 0 := rfl

end Cert.DenseRelu

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.KernelPayload.lean ====
/-
  What the kernel body stores, read at an entry.

  At one grid point the body holds a block of 5000 rows of the aggregated features, the whole weight array and the
  bias as a 1 × 128 row. It multiplies the block by the weights (accumulating into zero), adds the bias row to every
  row, and takes the maximum with zero. Changing the number format of the two factors before the product is the
  identity on the extended reals. So entry `(p, q)` of what it stores is

      max (∑ k, block (p, k) · W (k, q) + bias (0, q)) 0.
-/
import proofs.«163567_j72765335929214_2_alg».proof.Proof.Gen.KernelIdeal.Skeleton
import proofs.«163567_j72765335929214_2_alg».proof.Proof.LibGram
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx

/-- The product's left factor at output entry `(p, q)` and contraction coordinate `k` is entry `(p, k)`. -/
theorem lhs_entry (p : Fin 5000) (q k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  funext a
  apply Fin.ext
  match a with
  | ⟨0, _⟩ =>
    show (dot_S5000x128_S128x128_S5000x128_1_0_0_1_n_n.lhsIdx (ix2 p q) _ 0).val = p.val
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  | ⟨1, _⟩ =>
    exact (dot_S5000x128_S128x128_S5000x128_1_0_0_1_n_n.lhsIdx_val_of_single rfl (ix2 p q) _).trans
      (contrEquiv1_symm_val dot_S5000x128_S128x128_S5000x128_1_0_0_1_n_n 128 rfl rfl k)

/-- The product's right factor at output entry `(p, q)` and contraction coordinate `k` is entry `(k, q)`. -/
theorem rhs_entry (p : Fin 5000) (q k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  funext a
  apply Fin.ext
  match a with
  | ⟨0, _⟩ =>
    exact (dot_S5000x128_S128x128_S5000x128_1_0_0_1_n_n.rhsIdx_val_of_single rfl (ix2 p q) _).trans
      (contrEquiv1_symm_val dot_S5000x128_S128x128_S5000x128_1_0_0_1_n_n 128 rfl rfl k)
  | ⟨1, _⟩ =>
    show (dot_S5000x128_S128x128_S5000x128_1_0_0_1_n_n.rhsIdx (ix2 p q) _ 1).val = q.val
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- Entry `(p, q)` of the stored block: row `p` of the feature block against column `q` of the weights, plus the
    bias at `q`, cut off below at zero. -/
theorem stored_entry (x0 : Vec Ideal S5000x128 .f32) (x1 : Vec Ideal S128x128 .f32) (x2 : Vec Ideal S1x128 .f32)
    (p : Fin 5000) (q : Fin 128) :
    k0_pay1 (F := Ideal) x0 x1 x2 (ix2 p q)
      = max ((∑ k : Fin 128, x0 (ix2 p k) * x1 (ix2 k q)) + x2 (ix2 (0 : Fin 1) q)) 0 := by
  unfold k0_pay1
  rw [shapeCast_self, shapeCast_self]
  show max ((matmul (F := Ideal) dot_S5000x128_S128x128_S5000x128_1_0_0_1_n_n none _ _
        (constant (F := Ideal) S5000x128 .f32 0x00000000#32) (ix2 p q) : EReal)
      + (broadcastTo S5000x128 x2 broadcasts_S1x128_S5000x128 (ix2 p q) : EReal)) (Ideal.ofBits .f32 0x00000000#32) = _
  rw [Ideal.ofBits_zero_f32, broadcastTo_1b_ab_apply,
    Cert.Lib.Gram.matmul_zero_single_apply dot_S5000x128_S128x128_S5000x128_1_0_0_1_n_n 128 rfl rfl none _ _ (ix2 p q)
      (fun k => ix2 p k) (fun k => ix2 k q) (lhs_entry p q) (rhs_entry p q)]
  rfl

end Cert.KernelIdeal.Bridge

end
-- ==== Proof.KernelEntry.lean ====
/-
  What the kernel's dense-layer region finds in its operand arrays.

  Before the region the program gathers, for every edge, the feature row of the edge's source node (a negative
  source index first wrapped by adding the number of nodes), and adds every gathered row into the row of the edge's
  destination node, starting from an array of zeros: the aggregated features. It also recasts the length-128 bias
  as a 1 × 128 row. The weights are an argument and reach the region untouched.
-/
import proofs.«163567_j72765335929214_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The aggregated features: for each node, the sum of the feature rows of the sources of its incoming edges. -/
def aggregated (x0 : (⟨S50000x128, .f32⟩ : BufTy).Contents (Elt F)) (x1 x2 : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x2)
    (Host.gather gather_S50000x128_S800000x1_S800000x128_1_0_n_n_0_1_1128 x0
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

variable (m : (ℓ : Loc nD τ sig) → Buf (Elt F) ℓ)

/-- The region's first operand array holds the aggregated features of the arguments. -/
theorem entry_features (c : Dev nD) :
    (V m c main_v9 : S50000x128.Idx → Elt F .f32)
      = aggregated (F := F) (m ((c : Thread nD τ).loc main_arg0)) (m ((c : Thread nD τ).loc main_arg1))
          (m ((c : Thread nD τ).loc main_arg2)) := by
  dsimp only [Gen.V, Gen.hostOps0]
  after_results
  rfl

/-- The region's third operand array holds the bias recast as one row. -/
theorem entry_bias (c : Dev nD) :
    (V m c main_v10 : S1x128.Idx → Elt F .f32)
      = shapeCast S1x128 (m ((c : Thread nD τ).loc main_arg4)) shapeCasts_S128_S1x128 := by
  dsimp only [Gen.V, Gen.hostOps0]
  after_results
  rfl

/-- Entry `(0, q)` of that row is the bias at `q`. -/
theorem entry_bias_apply (c : Dev nD) (q : Fin 128) :
    (V m c main_v10 : S1x128.Idx → Elt F .f32) (ix2 (0 : Fin 1) q)
      = (m ((c : Thread nD τ).loc main_arg4) : S128.Idx → Elt F .f32) (ix1 q) := by
  rw [entry_bias]
  exact shapeCast_a_1a_apply _ _ 0 q

end Cert.KernelIdeal.Bridge

end
-- ==== Proof.StoredBlock.lean ====
/-
  What a grid point stores is a block of the dense layer.

  Entry `(p, q)` of what point `t` stores is the dense layer's entry `(5000 t + p, q)`, because row `p` of the block
  the point read is row `5000 t + p` of the aggregated features, and the weights and the bias are read whole.
-/
import proofs.«163567_j72765335929214_2_alg».proof.Proof.BlockReads
import proofs.«163567_j72765335929214_2_alg».proof.Proof.DenseSpec
import proofs.«163567_j72765335929214_2_alg».proof.Proof.KernelPayload
import proofs.«163567_j72765335929214_2_alg».proof.Proof.KernelEntry

noncomputable section

namespace Cert.KernelIdeal.Bridge

open Cert.KernelIdeal Cert.KernelIdeal.Gen Cert.KernelIdeal.Value Idealize.ShloMosaic Idealize.ShloMosaic.TcCoe
open Idealize.SL.Sem Idealize.ShloMosaic.ValueIdx Cert.DenseRelu
open Idealize.ShloMosaic.Pipeline (Dat)

variable (m : (ℓ : Loc nD τ sig) → Buf (Elt Ideal) ℓ) (ρ : Dev nD → PrngReg)

/-- The kernel's result: the dense layer of the aggregated features, the weights and the bias, as the arguments
    give them. -/
def result (c : Dev nD) : S50000x128.Idx → Elt Ideal .f32 :=
  dense (aggregated (F := Ideal) (m ((c : Thread nD τ).loc main_arg0)) (m ((c : Thread nD τ).loc main_arg1))
      (m ((c : Thread nD τ).loc main_arg2)))
    (m ((c : Thread nD τ).loc main_arg3)) (m ((c : Thread nD τ).loc main_arg4))

/-- Row `p` of the feature block at point `t`, at column `k`, is the aggregated features' entry `(5000 t + p, k)`. -/
theorem feature_entry (c : Dev nD) (t : Fin cfg0.N) (p : Fin 5000) (r : Fin 50000) (hr : r.val = 5000 * t.val + p.val)
    (k : Fin 128) :
    (iblk m c 0 t : Vec Ideal S5000x128 .f32) (ix2 p k)
      = aggregated (F := Ideal) (m ((c : Thread nD τ).loc main_arg0)) (m ((c : Thread nD τ).loc main_arg1))
          (m ((c : Thread nD τ).loc main_arg2)) (ix2 r k) := by
  rw [feature_block_apply m c t (ix2 p k) (ix2 r k) hr rfl, entry_features]

/-- The weight block's entry `(k, q)` is the weight argument's. -/
theorem weight_entry (c : Dev nD) (t : Fin cfg0.N) (k q : Fin 128) :
    (iblk m c 1 t : Vec Ideal S128x128 .f32) (ix2 k q)
      = (m ((c : Thread nD τ).loc main_arg3) : S128x128.Idx → Elt Ideal .f32) (ix2 k q) := by
  rw [weight_block_apply, V_main_arg3]

/-- The bias block's entry `(0, q)` is the bias argument's entry `q`. -/
theorem bias_entry (c : Dev nD) (t : Fin cfg0.N) (q : Fin 128) :
    (iblk m c 2 t : Vec Ideal S1x128 .f32) (ix2 (0 : Fin 1) q)
      = (m ((c : Thread nD τ).loc main_arg4) : S128.Idx → Elt Ideal .f32) (ix1 q) := by
  rw [bias_block_apply, entry_bias_apply]

/-- Entry `(p, q)` of what point `t` stores is the result's entry `(5000 t + p, q)`. -/
theorem stored_is_result (c : Dev nD) (t : Fin cfg0.N) (y : S5000x128.Idx) (i : S50000x128.Idx)
    (hi0 : (i 0).val = 5000 * t.val + (y 0).val) (hi1 : (i 1).val = (y 1).val) :
    k0_pay1 (F := Ideal) (iblk m c 0 t) (iblk m c 1 t) (iblk m c 2 t) y = result m c i := by
  obtain ⟨p, q, rfl⟩ : ∃ (p : Fin 5000) (q : Fin 128), y = ix2 p q := ⟨y 0, y 1, eq_ix2 y⟩
  have hq : i 1 = q := Fin.ext hi1
  rw [stored_entry]
  simp only [feature_entry m c t p (i 0) hi0, weight_entry m c t, bias_entry m c t]
  unfold result
  rw [dense_apply, hq]

end Cert.KernelIdeal.Bridge

end
-- ==== Proof.ResultArray.lean ====
/-
  From the blocks the grid points write to the kernel's whole result array.

  Point `t` writes rows `5000 t … 5000 t + 4999` of the result, and what it writes is that block of the dense layer.
  Row `r` of the result is written by point `r / 5000`, so the ten blocks cover the array, and the array ends holding
  the dense layer of the aggregated features, the weights and the bias.
-/
import proofs.«163567_j72765335929214_2_alg».proof.Proof.StoredBlock

noncomputable section

namespace Cert.KernelIdeal.Bridge

open Cert.KernelIdeal Cert.KernelIdeal.Gen Cert.KernelIdeal.Value Idealize.ShloMosaic Idealize.ShloMosaic.TcCoe
open Idealize.SL.Sem Idealize.ShloMosaic.ValueIdx Cert.DenseRelu
open Idealize.ShloMosaic.Pipeline (Dat)

variable (m : (ℓ : Loc nD τ sig) → Buf (Elt Ideal) ℓ) (ρ : Dev nD → PrngReg)

/-- A 5000-row block `X` whose entry `(p, q)` is an array's entry `(5000 t + p, q)` is that array read through the
    result window's block at point `t`. -/
theorem block_of_array (X : S5000x128.Idx → Elt Ideal .f32) (A : S50000x128.Idx → Elt Ideal .f32) (t : Fin cfg0.N)
    (h : ∀ (y : S5000x128.Idx) (i : S50000x128.Idx), (i 0).val = 5000 * t.val + (y 0).val → (i 1).val = (y 1).val →
      X y = A i) :
    (cfg0.win 3).cut (grid0.coords t) X = ((cfg0.win 3).blk t).view.read (Elt Ideal) A := by
  obtain ⟨-, -, -, -, -, -, e0, e1⟩ := block_indices t
  funext y
  rw [View.read_apply]
  show X _ = A _
  refine h _ _ ?_ ?_
  · show win0_3.index t (0 : Fin 2) * 5000 + 1 * (y 0).val = 5000 * t.val + (y 0).val
    rw [e0]; omega
  · show win0_3.index t (1 : Fin 2) * 128 + 1 * (y 1).val = (y 1).val
    rw [e1]; omega

/-- What point `t` writes back is block `t` of the result. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S5000x128) zero_offsets, View.ld_unit_zero (S := S128x128) zero_offsets,
    View.ld_unit_zero (S := S1x128) zero_offsets]
  exact block_of_array _ _ t (stored_is_result m c t)

/-- An index of the result array is in point `t`'s block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- Row `r` of the result lies in the block of point `r / 5000`: the ten blocks cover the array. -/
theorem blocks_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := block_indices t
  have ht : t.val = (i 0).val / 5000 := rfl
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- The result array after the run is the dense layer of the aggregated features. -/
theorem final_result (c : Dev nD) : (dats m 0 c).arrAt 3 cfg0.N = result m c :=
  (dats m 0 c).arrAt_eq_of_cover 3 (result m c) (fun t _ => flushed_eq m c t) blocks_cover

/-- The kernel's run, read: it terminates with the result array at the dense layer of the aggregated features and the
    arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_result m c), (h c).2⟩) (run_blocks m ρ)

end Cert.KernelIdeal.Bridge

end
-- ==== Proof.ReferenceDense.lean ====
/-
  The reference computes the dense layer of its own aggregated features.

  After the gather and the scatter-add the reference multiplies the aggregated array by the weights, broadcasts the
  bias first to one row and then to every row, adds, and takes the maximum with a zero array. Read at entry `i`, one
  operation at a time, this is `max (∑ k, h (i 0, k) · W (k, i 1) + b (i 1)) 0`: the dense layer.
-/
import proofs.«163567_j72765335929214_2_alg».proof.Proof.Gen.ReferenceIdeal.Read
import proofs.«163567_j72765335929214_2_alg».proof.Proof.DenseSpec
import Idealize.ShloMosaic.PureOps.Ideal.Laws

noncomputable section

namespace Cert.ReferenceIdeal.Bridge

open Cert.ReferenceIdeal Cert.ReferenceIdeal.Gen Cert.ReferenceIdeal.Read Idealize.ShloMosaic
open Idealize.ShloMosaic.ValueIdx Cert.DenseRelu

/-- The product's left factor at entry `i` and contraction coordinate `k` is entry `(i 0, k)`. -/
theorem lidx_eq (i : S50000x128.Idx) (k : Fin 128) : lidx_main_v10 i k = ix2 (i 0) k :=
  funext fun a => by match a with | ⟨0, _⟩ => rfl | ⟨1, _⟩ => rfl

/-- The product's right factor at entry `i` and contraction coordinate `k` is entry `(k, i 1)`. -/
theorem ridx_eq (i : S50000x128.Idx) (k : Fin 128) : ridx_main_v10 i k = ix2 k (i 1) :=
  funext fun a => by match a with | ⟨0, _⟩ => rfl | ⟨1, _⟩ => rfl

/-- The twice-broadcast bias at entry `i` is the bias at `i 1`. -/
theorem bias_idx_eq (i : S50000x128.Idx) : idx_main_v11 (idx_main_v12 i) = ix1 (i 1) :=
  funext fun a => by match a with | ⟨0, _⟩ => rfl

/-- The reference's result is the dense layer of its aggregated features, the weights and the bias. -/
theorem reference_is_dense (x0 : (⟨S50000x128, .f32⟩ : BufTy).Contents (Elt Ideal))
    (x1 x2 : (⟨S800000, .i32⟩ : BufTy).Contents (Elt Ideal)) (x3 : (⟨S128x128, .f32⟩ : BufTy).Contents (Elt Ideal))
    (x4 : (⟨S128, .f32⟩ : BufTy).Contents (Elt Ideal)) :
    val_main_v14 (F := Ideal) x0 x1 x2 x3 x4 = dense (val_main_v9 (F := Ideal) x0 x1 x2) x3 x4 := by
  funext i
  rw [val_main_v14_apply, val_main_v13_apply, val_main_v10_apply, val_main_v12_apply, val_main_v11_apply,
    val_main_call0_v0_apply, val_main_call0_cst_apply, dense_apply]
  simp only [lidx_eq, ridx_eq, bias_idx_eq, Ideal.maximumf_def, Ideal.addf_def, Ideal.ofBits_def, Ideal.ofBits_zero_f32]
  rfl

end Cert.ReferenceIdeal.Bridge

end
-- ==== Proof.SameFeatures.lean ====
/-
  Both programs aggregate the node features by the same operations.

  The kernel's program and the reference start alike: wrap negative source indices, gather the source rows, and add
  them into the destination rows of a zero array. The two texts apply the same operations with the same dimension
  numbers to the same arguments, so the two aggregated arrays are one function of the arguments.
-/
import proofs.«163567_j72765335929214_2_alg».proof.Proof.KernelEntry
import proofs.«163567_j72765335929214_2_alg».proof.Proof.Gen.ReferenceIdeal.Read

noncomputable section

namespace Cert.Bridge

open Idealize.ShloMosaic

/-- The aggregated features of the kernel's program are those of the reference. -/
theorem aggregated_eq (x0 : (⟨Cert.KernelIdeal.S50000x128, .f32⟩ : BufTy).Contents (Elt Ideal))
    (x1 x2 : (⟨Cert.KernelIdeal.S800000, .i32⟩ : BufTy).Contents (Elt Ideal)) :
    Cert.KernelIdeal.Bridge.aggregated (F := Ideal) x0 x1 x2 = Cert.ReferenceIdeal.Read.val_main_v9 (F := Ideal) x0 x1 x2 :=
  rfl

end Cert.Bridge

end
-- ==== Proof.lean ====
/-
  A graph layer: sum every node's in-neighbours' feature rows, then apply one dense layer with a ramp.

  Both programs first aggregate: for each edge they gather the feature row of its source node and add it into the row
  of its destination node, starting from zeros. They do this with the same host operations, so the aggregated array
  `h` (50000 × 128) is the same function of the arguments on both sides. Then each computes, entry by entry,

      out (r, j) = max (∑ k, h (r, k) · W (k, j) + b j) 0 .

  The reference does so by one whole matrix product, a broadcast bias and a maximum with a zero array. The kernel
  does so in ten blocks of 5000 rows: each grid point multiplies its block of `h` by `W` (the factors first recast
  to a narrower number format, which is the identity on the extended reals), accumulates into zero, adds the bias row
  and takes the maximum with zero; the ten blocks tile the result. The two sums run over the same index in the same
  order, so no law beyond reading both sides at an entry is used, and the inputs' finiteness is never needed.

  The three frames come from the generated frame runs (the reference's from its generated run, the result dropped);
  the idealization rewrote nothing, so it is preserved trivially.
-/
import proofs.«163567_j72765335929214_2_alg».proof.Defs
import proofs.«163567_j72765335929214_2_alg».proof.Proof.Gen.Kernel
import proofs.«163567_j72765335929214_2_alg».proof.Proof.Gen.Kernel.Skeleton
import proofs.«163567_j72765335929214_2_alg».proof.Proof.Gen.Kernel.Launch
import proofs.«163567_j72765335929214_2_alg».proof.Proof.Gen.Kernel.Points
import proofs.«163567_j72765335929214_2_alg».proof.Proof.Gen.Kernel.Frame
import proofs.«163567_j72765335929214_2_alg».proof.Proof.Gen.KernelIdeal
import proofs.«163567_j72765335929214_2_alg».proof.Proof.Gen.KernelIdeal.Skeleton
import proofs.«163567_j72765335929214_2_alg».proof.Proof.Gen.KernelIdeal.Launch
import proofs.«163567_j72765335929214_2_alg».proof.Proof.Gen.KernelIdeal.Points
import proofs.«163567_j72765335929214_2_alg».proof.Proof.Gen.KernelIdeal.Frame
import proofs.«163567_j72765335929214_2_alg».proof.Proof.Gen.ReferenceIdeal
import proofs.«163567_j72765335929214_2_alg».proof.Proof.Gen.KernelIdeal.Value
import proofs.«163567_j72765335929214_2_alg».proof.Proof.Gen.ReferenceIdeal.Run
import proofs.«163567_j72765335929214_2_alg».proof.Proof.Gen.ReferenceIdeal.Read
import proofs.«163567_j72765335929214_2_alg».proof.Proof.Gen.Pre_finite_inputs
import proofs.«163567_j72765335929214_2_alg».proof.Proof.ResultArray
import proofs.«163567_j72765335929214_2_alg».proof.Proof.ReferenceDense
import proofs.«163567_j72765335929214_2_alg».proof.Proof.SameFeatures
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the dense layer of the same aggregated features, weights and bias. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Bridge.reference_is_dense,
    (hagree c).1, (hagree c).2.1, (hagree c).2.2.1, (hagree c).2.2.2.1, (hagree c).2.2.2.2,
    ← Cert.Bridge.aggregated_eq]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
